-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x32x128 : Shape := ⟨4, ![64, 64, 32, 128]⟩
abbrev S2x128x256 : Shape := ⟨3, ![2, 128, 256]⟩
abbrev S2x2x256 : Shape := ⟨3, ![2, 2, 256]⟩
abbrev S2x256 : Shape := ⟨2, ![2, 256]⟩
abbrev S128x256 : Shape := ⟨2, ![128, 256]⟩
abbrev S256 : Shape := ⟨1, ![256]⟩
abbrev S_ : Shape := ⟨0, ![]⟩

class Facts : Prop where
  bcast_S_S64x64x32x128 : S_.BroadcastsInDim S64x64x32x128 (![] : Fin 0 → Fin S64x64x32x128.rank)
  reducesTo_S64x64x32x128_S_d0_1_2_3 : S64x64x32x128.ReducesTo [0, 1, 2, 3] S_
  h_S_ : 0 < S_.numel
  bcast_S_S2x128x256 : S_.BroadcastsInDim S2x128x256 (![] : Fin 0 → Fin S2x128x256.rank)
  reducesTo_S2x128x256_S_d0_1_2 : S2x128x256.ReducesTo [0, 1, 2] S_
  bcast_S_S2x2x256 : S_.BroadcastsInDim S2x2x256 (![] : Fin 0 → Fin S2x2x256.rank)
  reducesTo_S2x2x256_S_d0_1_2 : S2x2x256.ReducesTo [0, 1, 2] S_
  bcast_S_S2x256 : S_.BroadcastsInDim S2x256 (![] : Fin 0 → Fin S2x256.rank)
  reducesTo_S2x256_S_d0_1 : S2x256.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S2x256 .f32) (main_arg12 : FVec F S256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S2x256 .f32 := Host.absf main_arg11
  let main_cst_20 : FVec F S_ .f32 := constant S_ .f32 0x7F800000#32
  let main_v55 : FVec F S2x256 .f32 := broadcastInDim S2x256 ![] bcast_S_S2x256 main_cst_20
  let main_v56 : IVec S2x256 1 := cmpf .olt main_v54 main_v55
  let main_c_21 : IVec S_ 1 := constantI S_ 1 1#1
  let main_v57 : IVec S_ 1 := (fun x v => Host.reduce IntOp.andi x v reducesTo_S2x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S128x256 .f32) (main_arg8 : FVec F S2x256 .f32) (main_arg9 : FVec F S256 .f32) (main_arg10 : FVec F S128x256 .f32) (main_arg11 : FVec F S2x256 .f32) (main_arg12 : FVec F S256 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S2x256 .f32 := Host.absf main_arg8
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_v48 main_v49 main_v50

def fn_part1 {F : FTy → Type} [FloatOps F] (main_arg4 : FVec F S128x256 .f32) (main_arg5 : FVec F S2x256 .f32) (main_arg6 : FVec F S256 .f32) (main_arg7 : FVec F S128x256 .f32) (main_arg8 : FVec F S2x256 .f32) (main_arg9 : FVec F S256 .f32) (main_arg10 : FVec F S128x256 .f32) (main_arg11 : FVec F S2x256 .f32) (main_arg12 : FVec F S256 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S2x256 .f32 := Host.absf main_arg5
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x64x32x128 .f32) (main_arg1 : FVec F S2x128x256 .f32) (main_arg2 : FVec F S2x2x256 .f32) (main_arg3 : FVec F S2x256 .f32) (main_arg4 : FVec F S128x256 .f32) (main_arg5 : FVec F S2x256 .f32) (main_arg6 : FVec F S256 .f32) (main_arg7 : FVec F S128x256 .f32) (main_arg8 : FVec F S2x256 .f32) (main_arg9 : FVec F S256 .f32) (main_arg10 : FVec F S128x256 .f32) (main_arg11 : FVec F S2x256 .f32) (main_arg12 : FVec F S256 .f32) : IVec S_ 1 :=
  let main_v0 : FVec F S64x64x32x128 .f32 := Host.absf main_arg0
  let main_cst : FVec F S_ .f32 := constant S_ .f32 0x7F800000#32
  let main_v1 : FVec F S64x64x32x128 .f32 := broadcastInDim S64x64x32x128 ![] bcast_S_S64x64x32x128 main_cst
  let main_v2 : IVec S64x64x32x128 1 := cmpf .olt main_v0 main_v1
  let main_c : IVec S_ 1 := constantI S_ 1 1#1
  let main_v3 : IVec S_ 1 := (fun x v => Host.reduce IntOp.andi x v reducesTo_S64x64x32x128_S_d0_1_2_3 h_S_) main_v2 main_c
  let main_v4 : FVec F S2x128x256 .f32 := Host.absf main_arg1
  let main_cst_0 : FVec F S_ .f32 := constant S_ .f32 0x7F800000#32
  let main_v5 : FVec F S2x128x256 .f32 := broadcastInDim S2x128x256 ![] bcast_S_S2x128x256 main_cst_0
  let main_v6 : IVec S2x128x256 1 := cmpf .olt main_v4 main_v5
  let main_c_1 : IVec S_ 1 := constantI S_ 1 1#1
  let main_v7 : IVec S_ 1 := (fun x v => Host.reduce IntOp.andi x v reducesTo_S2x128x256_S_d0_1_2 h_S_) main_v6 main_c_1
  let main_v8 : IVec S_ 1 := andi main_v3 main_v7
  let main_v9 : FVec F S2x2x256 .f32 := Host.absf main_arg2
  let main_cst_2 : FVec F S_ .f32 := constant S_ .f32 0x7F800000#32
  let main_v10 : FVec F S2x2x256 .f32 := broadcastInDim S2x2x256 ![] bcast_S_S2x2x256 main_cst_2
  let main_v11 : IVec S2x2x256 1 := cmpf .olt main_v9 main_v10
  let main_c_3 : IVec S_ 1 := constantI S_ 1 1#1
  let main_v12 : IVec S_ 1 := (fun x v => Host.reduce IntOp.andi x v reducesTo_S2x2x256_S_d0_1_2 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg4 main_arg5 main_arg6 main_arg7 main_arg8 main_arg9 main_arg10 main_arg11 main_arg12 main_v13 main_v16
-- ==== Kernel.lean ====
abbrev S64x64x32x128 : Shape := ⟨4, ![64, 64, 32, 128]⟩
abbrev S2x128x256 : Shape := ⟨3, ![2, 128, 256]⟩
abbrev S2x2x256 : Shape := ⟨3, ![2, 2, 256]⟩
abbrev S2x256 : Shape := ⟨2, ![2, 256]⟩
abbrev S128x256 : Shape := ⟨2, ![128, 256]⟩
abbrev S256 : Shape := ⟨1, ![256]⟩
abbrev S131072x128 : Shape := ⟨2, ![131072, 128]⟩
abbrev S131072x256 : Shape := ⟨2, ![131072, 256]⟩
abbrev S4096x128 : Shape := ⟨2, ![4096, 128]⟩
abbrev S4096x256 : Shape := ⟨2, ![4096, 256]⟩
abbrev S1x256 : Shape := ⟨2, ![1, 256]⟩
abbrev S64x64x32x256 : Shape := ⟨4, ![64, 64, 32, 256]⟩

abbrev nBuf : Space → Nat
  | .hbm => 16
  | .vmem => 8
  | .smem => 0
  | _ => 0

abbrev bufTy : (tb : Table) → Fin (tcTables nBuf tb) → BufTy
  | .hbm, ⟨0, _⟩ => ⟨S64x64x32x128, .f32⟩
  | .hbm, ⟨1, _⟩ => ⟨S2x128x256, .f32⟩
  | .hbm, ⟨2, _⟩ => ⟨S2x2x256, .f32⟩
  | .hbm, ⟨3, _⟩ => ⟨S2x256, .f32⟩
  | .hbm, ⟨4, _⟩ => ⟨S128x256, .f32⟩
  | .hbm, ⟨5, _⟩ => ⟨S2x256, .f32⟩
  | .hbm, ⟨6, _⟩ => ⟨S256, .f32⟩
  | .hbm, ⟨7, _⟩ => ⟨S128x256, .f32⟩
  | .hbm, ⟨8, _⟩ => ⟨S2x256, .f32⟩
  | .hbm, ⟨9, _⟩ => ⟨S256, .f32⟩
  | .hbm, ⟨10, _⟩ => ⟨S128x256, .f32⟩
  | .hbm, ⟨11, _⟩ => ⟨S2x256, .f32⟩
  | .hbm, ⟨12, _⟩ => ⟨S256, .f32⟩
  | .hbm, ⟨13, _⟩ => ⟨S131072x128, .f32⟩
  | .hbm, ⟨14, _⟩ => ⟨S131072x256, .f32⟩
  | .hbm, ⟨15, _⟩ => ⟨S64x64x32x256, .f32⟩
  | .local _ .vmem, ⟨0, _⟩ => ⟨S4096x128, .f32⟩
  | .local _ .vmem, ⟨1, _⟩ => ⟨S4096x128, .f32⟩
  | .local _ .vmem, ⟨2, _⟩ => ⟨S128x256, .f32⟩
  | .local _ .vmem, ⟨3, _⟩ => ⟨S128x256, .f32⟩
  | .local _ .vmem, ⟨4, _⟩ => ⟨S256, .f32⟩
  | .local _ .vmem, ⟨5, _⟩ => ⟨S256, .f32⟩
  | .local _ .vmem, ⟨6, _⟩ => ⟨S4096x256, .f32⟩
  | .local _ .vmem, ⟨7, _⟩ => ⟨S4096x256, .f32⟩
  | _, _ => ⟨S64x64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x64x32x128_S131072x128 : S64x64x32x128.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S131072x256_S64x64x32x256 : S131072x256.ShapeCasts S64x64x32x256
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S131072x256.size a
  hwx0_5 : ∀ i : grid0.Coords, EltTy.bits .f32 = 32 ∨ (Rect.block (s := S131072x256) S4096x256.size (cc0_transform_5 i) (hinb0_5 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x64x32x128 : Shape := ⟨4, ![64, 64, 32, 128]⟩
abbrev S2x128x256 : Shape := ⟨3, ![2, 128, 256]⟩
abbrev S2x2x256 : Shape := ⟨3, ![2, 2, 256]⟩
abbrev S2x256 : Shape := ⟨2, ![2, 256]⟩
abbrev S128x256 : Shape := ⟨2, ![128, 256]⟩
abbrev S256 : Shape := ⟨1, ![256]⟩
abbrev S64x64x32x256 : Shape := ⟨4, ![64, 64, 32, 256]⟩
abbrev S1x1x1x256 : Shape := ⟨4, ![1, 1, 1, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S64x64x32x128, .f32⟩
  | .hbm, ⟨1, _⟩ => ⟨S2x128x256, .f32⟩
  | .hbm, ⟨2, _⟩ => ⟨S2x2x256, .f32⟩
  | .hbm, ⟨3, _⟩ => ⟨S2x256, .f32⟩
  | .hbm, ⟨4, _⟩ => ⟨S128x256, .f32⟩
  | .hbm, ⟨5, _⟩ => ⟨S2x256, .f32⟩
  | .hbm, ⟨6, _⟩ => ⟨S256, .f32⟩
  | .hbm, ⟨7, _⟩ => ⟨S128x256, .f32⟩
  | .hbm, ⟨8, _⟩ => ⟨S2x256, .f32⟩
  | .hbm, ⟨9, _⟩ => ⟨S256, .f32⟩
  | .hbm, ⟨10, _⟩ => ⟨S128x256, .f32⟩
  | .hbm, ⟨11, _⟩ => ⟨S2x256, .f32⟩
  | .hbm, ⟨12, _⟩ => ⟨S256, .f32⟩
  | .hbm, ⟨13, _⟩ => ⟨S64x64x32x256, .f32⟩
  | .hbm, ⟨14, _⟩ => ⟨S1x1x1x256, .f32⟩
  | .hbm, ⟨15, _⟩ => ⟨S64x64x32x256, .f32⟩
  | .hbm, ⟨16, _⟩ => ⟨S64x64x32x256, .f32⟩
  | .hbm, ⟨17, _⟩ => ⟨S64x64x32x256, .f32⟩
  | .hbm, ⟨18, _⟩ => ⟨S64x64x32x256, .f32⟩
  | .hbm, ⟨19, _⟩ => ⟨S_, .f32⟩
  | .hbm, ⟨20, _⟩ => ⟨S64x64x32x256, .f32⟩
  | .hbm, ⟨21, _⟩ => ⟨S64x64x32x256, .f32⟩
  | .hbm, ⟨22, _⟩ => ⟨S_, .f32⟩
  | .hbm, ⟨23, _⟩ => ⟨S64x64x32x256, .f32⟩
  | .hbm, ⟨24, _⟩ => ⟨S64x64x32x256, .f32⟩
  | .hbm, ⟨25, _⟩ => ⟨S64x64x32x256, .f32⟩
  | .hbm, ⟨26, _⟩ => ⟨S1x1x1x256, .f32⟩
  | .hbm, ⟨27, _⟩ => ⟨S64x64x32x256, .f32⟩
  | .hbm, ⟨28, _⟩ => ⟨S64x64x32x256, .f32⟩
  | .hbm, ⟨29, _⟩ => ⟨S64x64x32x256, .f32⟩
  | .hbm, ⟨30, _⟩ => ⟨S64x64x32x256, .f32⟩
  | .hbm, ⟨31, _⟩ => ⟨S_, .f32⟩
  | .hbm, ⟨32, _⟩ => ⟨S64x64x32x256, .f32⟩
  | .hbm, ⟨33, _⟩ => ⟨S64x64x32x256, .f32⟩
  | .hbm, ⟨34, _⟩ => ⟨S_, .f32⟩
  | .hbm, ⟨35, _⟩ => ⟨S64x64x32x256, .f32⟩
  | .hbm, ⟨36, _⟩ => ⟨S64x64x32x256, .f32⟩
  | .hbm, ⟨37, _⟩ => ⟨S64x64x32x256, .f32⟩
  | .hbm, ⟨38, _⟩ => ⟨S64x64x32x256, .f32⟩
  | _, _ => ⟨S64x64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S64x64x32x256_0_1_2_3 : S1x1x1x256.BroadcastsInDim S64x64x32x256 (![0, 1, 2, 3] : Fin 4 → Fin S64x64x32x256.rank)
  bcast_S_S64x64x32x256 : S_.BroadcastsInDim S64x64x32x256 (![] : Fin 0 → Fin S64x64x32x256.rank)
  dot_S64x64x32x128_S128x256_S64x64x32x256_3_0_012_1_n_n_wf : DotDims.WF S64x64x32x128 S128x256 S64x64x32x256 [3] [0] [0, 1, 2] [1] [] []

variable [Facts₀]

def dot_S64x64x32x128_S128x256_S64x64x32x256_3_0_012_1_n_n : DotDims S64x64x32x128 S128x256 S64x64x32x256 where
  lhsContracting := [3]
  rhsContracting := [0]
  lhsNonContracting := [0, 1, 2]
  rhsNonContracting := [1]
  lhsBatch := []
  rhsBatch := []
  wf := dot_S64x64x32x128_S128x256_S64x64x32x256_3_0_012_1_n_n_wf

class Facts : Prop extends Facts₀ where

variable [Facts]
-- ==== Proof.GateSpec.lean ====
/-
  The mathematics of this certificate, with no program in sight.

  One output element is made from one row of 128 inputs `x`, one column `wo` and one column `wc` of the two
  128 × 256 weight matrices, and one entry `bo`, `bc` of each bias vector:

      σ(Σₖ xₖ · woₖ + bo) · tanh(σ(Σₖ xₖ · wcₖ + bc)),        σ z = 1 / (1 + e^(−z)),

  read on the extended reals (a sum of extended reals is a sum in a commutative monoid, so neither its order nor its
  grouping matters; no law used here needs a finite operand). `flat` lays these elements out over the rows of the
  input flattened to 131072 × 128, `grid` over the input as given, 64 × 64 × 32 × 128; they are the same numbers, row
  `(a·64 + b)·32 + c` of the one being position `(a, b, c)` of the other.
-/
import Idealize.ShloMosaic.PureOps.Ideal
import Idealize.ShloMosaic.Lib.ValueIdx

noncomputable section

open scoped BigOperators

namespace Cert.GateSpec

open Idealize.ShloMosaic Idealize.ShloMosaic.ValueIdx

/-- One output element from a row of inputs, a column of each weight matrix and an entry of each bias. -/
def cell (x wo wc : Fin 128 → EReal) (bo bc : EReal) : EReal :=
  Ideal.logistic ((∑ k : Fin 128, x k * wo k) + bo) * Ideal.tanh (Ideal.logistic ((∑ k : Fin 128, x k * wc k) + bc))

/-- The result over the flattened input: element `(r, q)` is the cell of row `r` and column `q`. -/
def flat (X : (⟨2, ![131072, 128]⟩ : Shape).Idx → EReal) (Wo Wc : (⟨2, ![128, 256]⟩ : Shape).Idx → EReal)
    (bo bc : (⟨1, ![256]⟩ : Shape).Idx → EReal) : (⟨2, ![131072, 256]⟩ : Shape).Idx → EReal :=
  fun j => cell (fun k => X (ix2 (j 0) k)) (fun k => Wo (ix2 k (j 1))) (fun k => Wc (ix2 k (j 1))) (bo (ix1 (j 1))) (bc (ix1 (j 1)))

/-- The result over the input as given: element `(a, b, c, q)` is the cell of the row at `(a, b, c)` and column `q`. -/
def grid (X : (⟨4, ![64, 64, 32, 128]⟩ : Shape).Idx → EReal) (Wo Wc : (⟨2, ![128, 256]⟩ : Shape).Idx → EReal)
    (bo bc : (⟨1, ![256]⟩ : Shape).Idx → EReal) : (⟨4, ![64, 64, 32, 256]⟩ : Shape).Idx → EReal :=
  fun i => cell (fun k => X (ix4 (i 0) (i 1) (i 2) k)) (fun k => Wo (ix2 k (i 3))) (fun k => Wc (ix2 k (i 3))) (bo (ix1 (i 3))) (bc (ix1 (i 3)))

theorem flat_at (X : (⟨2, ![131072, 128]⟩ : Shape).Idx → EReal) (Wo Wc : (⟨2, ![128, 256]⟩ : Shape).Idx → EReal)
    (bo bc : (⟨1, ![256]⟩ : Shape).Idx → EReal) (r : Fin 131072) (q : Fin 256) :
    flat X Wo Wc bo bc (ix2 r q)
      = cell (fun k => X (ix2 r k)) (fun k => Wo (ix2 k q)) (fun k => Wc (ix2 k q)) (bo (ix1 q)) (bc (ix1 q)) := rfl

theorem grid_at (X : (⟨4, ![64, 64, 32, 128]⟩ : Shape).Idx → EReal) (Wo Wc : (⟨2, ![128, 256]⟩ : Shape).Idx → EReal)
    (bo bc : (⟨1, ![256]⟩ : Shape).Idx → EReal) (a b : Fin 64) (c : Fin 32) (q : Fin 256) :
    grid X Wo Wc bo bc (ix4 a b c q)
      = cell (fun k => X (ix4 a b c k)) (fun k => Wo (ix2 k q)) (fun k => Wc (ix2 k q)) (bo (ix1 q)) (bc (ix1 q)) := rfl

/-- The logistic function spelled out as a quotient — one over one plus the exponential of the negation — is the
    logistic function: that quotient is its definition on the extended reals, infinities included. -/
theorem one_div_one_add_exp_neg (z : EReal) : Ideal.div 1 (1 + Ideal.exp (-z)) = Ideal.logistic z := rfl

end Cert.GateSpec

end
-- ==== Proof.ReferenceIsGrid.lean ====
/-
  The reference computes `grid`.

  Read one element `(a, b, c, q)` of the reference's result, operation by operation. Its two matrix products contract
  the input's last axis with a weight matrix's first: the element is Σₖ x(a, b, c, k) · w(k, q). Each bias is broadcast
  along the three leading axes, so it contributes its entry `q`. The reference spells the logistic function as the
  quotient 1 / (1 + e^(−z)) with the literal one (the word 0x3F800000), which on the extended reals is the logistic
  function by definition; its hyperbolic tangent and its final product are the extended reals' own. So the element is
  the cell of the row at `(a, b, c)` and column `q`.
-/
import proofs.«162145_j48730698940887_1_alg».proof.Proof.Gen.ReferenceIdeal.Read
import proofs.«162145_j48730698940887_1_alg».proof.Proof.GateSpec
import Idealize.ShloMosaic.Lib.IdealHost

noncomputable section

namespace Cert.ReferenceIdeal.IsGrid

open Cert.ReferenceIdeal Cert.ReferenceIdeal.Read Idealize.ShloMosaic Idealize.ShloMosaic.ValueIdx

/-- The left operand of either product at `(a, b, c, q)`, term `k`: the input at `(a, b, c, k)`. -/
theorem lidx_v0 (a b : Fin 64) (c : Fin 32) (q : Fin 256) (k : Fin 128) : lidx_main_v0 (ix4 a b c q) k = ix4 a b c k :=
  funext fun e => Fin.ext (by match e with | ⟨0, _⟩ => rfl | ⟨1, _⟩ => rfl | ⟨2, _⟩ => rfl | ⟨3, _⟩ => rfl)
theorem lidx_v10 (a b : Fin 64) (c : Fin 32) (q : Fin 256) (k : Fin 128) : lidx_main_v10 (ix4 a b c q) k = ix4 a b c k :=
  funext fun e => Fin.ext (by match e with | ⟨0, _⟩ => rfl | ⟨1, _⟩ => rfl | ⟨2, _⟩ => rfl | ⟨3, _⟩ => rfl)
/-- The right operand there: the weight at `(k, q)`. -/
theorem ridx_v0 (a b : Fin 64) (c : Fin 32) (q : Fin 256) (k : Fin 128) : ridx_main_v0 (ix4 a b c q) k = ix2 k q :=
  funext fun e => Fin.ext (by match e with | ⟨0, _⟩ => rfl | ⟨1, _⟩ => rfl)
theorem ridx_v10 (a b : Fin 64) (c : Fin 32) (q : Fin 256) (k : Fin 128) : ridx_main_v10 (ix4 a b c q) k = ix2 k q :=
  funext fun e => Fin.ext (by match e with | ⟨0, _⟩ => rfl | ⟨1, _⟩ => rfl)
/-- A bias broadcast along the leading axes is read, at `(a, b, c, q)`, at its entry `q`. -/
theorem idx_v1 (a b : Fin 64) (c : Fin 32) (q : Fin 256) : idx_main_v1 (idx_main_v2 (ix4 a b c q)) = ix1 q :=
  funext fun e => Fin.ext (by match e with | ⟨0, _⟩ => rfl)
theorem idx_v11 (a b : Fin 64) (c : Fin 32) (q : Fin 256) : idx_main_v11 (idx_main_v12 (ix4 a b c q)) = ix1 q :=
  funext fun e => Fin.ext (by match e with | ⟨0, _⟩ => rfl)

/-- The reference's result, as a function of the five arguments it reads, is `grid` of them. -/
theorem result_eq (x0 : (⟨S64x64x32x128, .f32⟩ : BufTy).Contents (Elt Ideal)) (x7 : (⟨S128x256, .f32⟩ : BufTy).Contents (Elt Ideal))
    (x9 : (⟨S256, .f32⟩ : BufTy).Contents (Elt Ideal)) (x10 : (⟨S128x256, .f32⟩ : BufTy).Contents (Elt Ideal))
    (x12 : (⟨S256, .f32⟩ : BufTy).Contents (Elt Ideal)) :
    val_main_v21 (F := Ideal) x0 x7 x9 x10 x12 = Cert.GateSpec.grid x0 x7 x10 x9 x12 := by
  funext i
  obtain ⟨a, b, c, q, rfl⟩ : ∃ (a b : Fin 64) (c : Fin 32) (q : Fin 256), i = ix4 a b c q :=
    ⟨i 0, i 1, i 2, i 3, eq_ix4 i⟩
  rw [val_main_v21_apply, val_main_v9_apply, val_main_v8_apply, val_main_cst_0_apply, val_main_v7_apply, val_main_v6_apply,
    val_main_cst_apply, val_main_v5_apply, val_main_v4_apply, val_main_v3_apply, val_main_v0_apply, val_main_v2_apply,
    val_main_v1_apply, val_main_v20_apply, val_main_v19_apply, val_main_v18_apply, val_main_cst_2_apply, val_main_v17_apply,
    val_main_v16_apply, val_main_cst_1_apply, val_main_v15_apply, val_main_v14_apply, val_main_v13_apply, val_main_v10_apply,
    val_main_v12_apply, val_main_v11_apply, Cert.GateSpec.grid_at]
  simp only [lidx_v0, lidx_v10, ridx_v0, ridx_v10, idx_v1, idx_v11, Ideal.mulf_def, Ideal.addf_def, Ideal.hostDivf_def,
    Ideal.hostNegf_def, Ideal.negf_def, Ideal.hostUnary_exp_def, Ideal.hostUnary_tanh_def, Ideal.ofBits_def,
    Ideal.ofBits_one_f32, Cert.GateSpec.one_div_one_add_exp_neg]
  rfl

end Cert.ReferenceIdeal.IsGrid

end
-- ==== Proof.Payload.lean ====
/-
  What the kernel body stores, element by element.

  The body holds a 4096 × 128 block of input rows, both 128 × 256 weight matrices and both bias vectors. Narrowing to
  the 16-bit format before the products changes no value on the extended reals. Each product is accumulated into zero
  and contracts the block's column axis with a weight's row axis, so its element `(p, q)` is Σₖ x(p, k) · w(k, q). Each
  bias is viewed as one row of 256 and repeated down the 4096 rows, so it contributes its entry `q`. The logistic
  function, the hyperbolic tangent and the product are elementwise. So element `(p, q)` of what is stored is the cell of
  the block's row `p` and column `q`.
-/
import proofs.«162145_j48730698940887_1_alg».proof.Proof.Gen.KernelIdeal.Skeleton
import proofs.«162145_j48730698940887_1_alg».proof.Proof.GateSpec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The rows of a product's left operand are the output's rows … -/
theorem lhs_row (j : S4096x256.Idx) (κ : dot_S4096x128_S128x256_S4096x256_1_0_0_1_n_n.contr.Idx) : (dot_S4096x128_S128x256_S4096x256_1_0_0_1_n_n.lhsIdx j κ 0).val = (j 0).val := by
  unfold DotDims.lhsIdx
  rw [dif_neg (show ¬(0 : Fin S4096x128.rank) ∈ dot_S4096x128_S128x256_S4096x256_1_0_0_1_n_n.lhsBatch by decide),
    dif_pos (show (0 : Fin S4096x128.rank) ∈ dot_S4096x128_S128x256_S4096x256_1_0_0_1_n_n.lhsNonContracting by decide)]
  rfl
/-- … and the columns of its right operand the output's columns. -/
theorem rhs_col (j : S4096x256.Idx) (κ : dot_S4096x128_S128x256_S4096x256_1_0_0_1_n_n.contr.Idx) : (dot_S4096x128_S128x256_S4096x256_1_0_0_1_n_n.rhsIdx j κ 1).val = (j 1).val := by
  unfold DotDims.rhsIdx
  rw [dif_neg (show ¬(1 : Fin S128x256.rank) ∈ dot_S4096x128_S128x256_S4096x256_1_0_0_1_n_n.rhsBatch by decide),
    dif_pos (show (1 : Fin S128x256.rank) ∈ dot_S4096x128_S128x256_S4096x256_1_0_0_1_n_n.rhsNonContracting by decide)]
  rfl

/-- A product accumulated into zero, at `(p, q)`: the sum over the contracted axis of row `p` against column `q`. -/
theorem product_at (X : FVec Ideal S4096x128 .bf16) (W : FVec Ideal S128x256 .bf16) (p : Fin 4096) (q : Fin 256) :
    matmul dot_S4096x128_S128x256_S4096x256_1_0_0_1_n_n none X W (constant S4096x256 .f32 0x00000000#32) (ix2 p q) = ∑ k : Fin 128, X (ix2 p k) * W (ix2 k q) := by
  simp only [matmul]
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 p q) ((contrEquiv1 dot_S4096x128_S128x256_S4096x256_1_0_0_1_n_n 128 rfl rfl).symm k) = ix2 p k := funext fun a => Fin.ext (by
    match a with
    | ⟨0, _⟩ => exact lhs_row _ _
    | ⟨1, _⟩ => exact (dot_S4096x128_S128x256_S4096x256_1_0_0_1_n_n.lhsIdx_val_of_single rfl _ _).trans hk)
  have er : dot_S4096x128_S128x256_S4096x256_1_0_0_1_n_n.rhsIdx (ix2 p q) ((contrEquiv1 dot_S4096x128_S128x256_S4096x256_1_0_0_1_n_n 128 rfl rfl).symm k) = ix2 k q := funext fun a => Fin.ext (by
    match a with
    | ⟨0, _⟩ => exact (dot_S4096x128_S128x256_S4096x256_1_0_0_1_n_n.rhsIdx_val_of_single rfl _ _).trans hk
    | ⟨1, _⟩ => exact rhs_col _ _)
  rw [el, er]

/-- A vector of 256 viewed as one row and repeated down 4096 rows, at `(p, q)`: its entry `q`. -/
theorem bias_at (v : S256.Idx → EReal) (p : Fin 4096) (q : Fin 256) :
    broadcastTo S4096x256 (shapeCast S1x256 v shapeCasts_S256_S1x256) broadcasts_S1x256_S4096x256 (ix2 p q) = v (ix1 q) := by
  refine (broadcastTo_apply _ broadcasts_S1x256_S4096x256 (ix2 p q) (ix2 (0 : Fin 1) q) (fun a => by
    match a with
    | ⟨0, _⟩ => rfl
    | ⟨1, _⟩ => rfl)).trans ?_
  refine shapeCast_apply v shapeCasts_S256_S1x256 _ (ix1 q) ?_
  rw [Shape.rowMajor_val_one, Shape.rowMajor_val_two]
  show q.val = 0 * 256 + q.val
  omega

/-- What the body stores at `(p, q)` is the cell of the loaded block's row `p` and the weights' column `q`. -/
theorem stored_at (x0 : Vec Ideal S4096x128 .f32) (x1 x2 : Vec Ideal S128x256 .f32) (x3 x4 : Vec Ideal S256 .f32)
    (p : Fin 4096) (q : Fin 256) :
    k0_pay1 (F := Ideal) x0 x1 x2 x3 x4 (ix2 p q)
      = Cert.GateSpec.cell (fun k => x0 (ix2 p k)) (fun k => x1 (ix2 k q)) (fun k => x2 (ix2 k q)) (x3 (ix1 q)) (x4 (ix1 q)) := by
  unfold k0_pay1 Cert.GateSpec.cell
  simp only [shapeCast_self]
  exact congrArg₂ (· * ·)
    (congrArg Ideal.logistic (congrArg₂ (· + ·) (product_at _ _ p q) (bias_at x3 p q)))
    (congrArg Ideal.tanh (congrArg Ideal.logistic (congrArg₂ (· + ·) (product_at _ _ p q) (bias_at x4 p q))))

end Cert.KernelIdeal.Payload

end
-- ==== Proof.Blocks.lean ====
/-
  From the blocks the grid points write to the whole array.

  The grid has 32 points. Point `t` reads rows `t·4096 … t·4096 + 4095` of the flattened input (its block index is
  `(t, 0)`), reads both weight matrices and both bias vectors whole (block index zero), and writes rows
  `t·4096 … t·4096 + 4095` of the 131072 × 256 output. Its body stores, at `(p, q)` of the block, the cell of the
  block's row `p` and column `q`; row `p` of the block is row `t·4096 + p` of the array. So what point `t` writes is
  its block of ONE array, `flat` of the arrays the region finds. Every row `r` lies in the block of point `r / 4096`,
  so the 32 blocks cover the output and the output ends as `flat`.
-/
import proofs.«162145_j48730698940887_1_alg».proof.Proof.Gen.KernelIdeal.Frame
import proofs.«162145_j48730698940887_1_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The output array as one function of the arrays the region finds. -/
abbrev whole (c : Dev nD) : S131072x256.Idx → EReal :=
  Cert.GateSpec.flat (V m c main_v0) (V m c main_arg7) (V m c main_arg10) (V m c main_arg9) (V m c main_arg12)

/-- The block indices, decided over the 32 points: the input's and the output's block is `(t, 0)`; the weights' and the
    biases' is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 2) = t.val ∧ win0_5.index t (1 : Fin 2) = 0 :=
  (by decide +kernel : ∀ t : Fin grid0.N, _)

/-- Row `p` of point `t`'s block is this row of the array. -/
def rowAt (t : Fin cfg0.N) (p : Fin 4096) : Fin 131072 :=
  ⟨t.val * 4096 + p.val, by have := lt_of_lt_of_eq t.isLt N_0; have := p.isLt; omega⟩

/-- WHAT POINT `t` WRITES BACK is its block of `whole`. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero zero2]
  simp only [View.ld_unit_zero (S := S4096x128) zero2, View.ld_unit_zero (S := S128x256) zero2, View.ld_unit_zero (S := S256) zero1]
  obtain ⟨e00, e01, e10, e11, e20, e21, e3, e4, e50, e51⟩ := idx_facts t
  funext j
  obtain ⟨p, q, rfl⟩ : ∃ (p : Fin 4096) (q : Fin 256), j = ix2 p q := ⟨j 0, j 1, eq_ix2 j⟩
  have h5 : (((cfg0.win 5).blk t).view.emb (ix2 p q) : S131072x256.Idx) = ix2 (rowAt t p) q := by
    funext a; apply Fin.ext
    match a with
    | ⟨0, _⟩ => show win0_5.index t (0 : Fin 2) * 4096 + 1 * p.val = t.val * 4096 + p.val; omega
    | ⟨1, _⟩ => show win0_5.index t (1 : Fin 2) * 256 + 1 * q.val = q.val; omega
  have h0 : ∀ k : Fin 128, (((cfg0.win 0).blk t).view.emb (ix2 p k) : S131072x128.Idx) = ix2 (rowAt t p) k := fun k => by
    funext a; apply Fin.ext
    match a with
    | ⟨0, _⟩ => show win0_0.index t (0 : Fin 2) * 4096 + 1 * p.val = t.val * 4096 + p.val; omega
    | ⟨1, _⟩ => show win0_0.index t (1 : Fin 2) * 128 + 1 * k.val = k.val; omega
  have h1 : ∀ k : Fin 128, (((cfg0.win 1).blk t).view.emb (ix2 k q) : S128x256.Idx) = ix2 k q := fun k => by
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  have h2 : ∀ k : Fin 128, (((cfg0.win 2).blk t).view.emb (ix2 k q) : S128x256.Idx) = ix2 k q := fun k => by
    funext a; apply Fin.ext
    match a with
    | ⟨0, _⟩ => show win0_2.index t (0 : Fin 2) * 128 + 1 * k.val = k.val; omega
    | ⟨1, _⟩ => show win0_2.index t (1 : Fin 2) * 256 + 1 * q.val = q.val; omega
  have h3 : (((cfg0.win 3).blk t).view.emb (ix1 q) : S256.Idx) = ix1 q := by
    funext a; apply Fin.ext
    match a with
    | ⟨0, _⟩ => show win0_3.index t (0 : Fin 1) * 256 + 1 * q.val = q.val; omega
  have h4 : (((cfg0.win 4).blk t).view.emb (ix1 q) : S256.Idx) = ix1 q := by
    funext a; apply Fin.ext
    match a with
    | ⟨0, _⟩ => show win0_4.index t (0 : Fin 1) * 256 + 1 * q.val = q.val; omega
  show k0_pay1 (F := Ideal) (iblk m c 0 t) (iblk m c 1 t) (iblk m c 2 t) (iblk m c 3 t) (iblk m c 4 t) (ix2 p q)
    = whole m c (((cfg0.win 5).blk t).view.emb (ix2 p q))
  refine (Cert.KernelIdeal.Payload.stored_at _ _ _ _ _ p q).trans ?_
  rw [h5]
  show Cert.GateSpec.cell (fun k => V m c main_v0 (((cfg0.win 0).blk t).view.emb (ix2 p k)))
      (fun k => V m c main_arg7 (((cfg0.win 1).blk t).view.emb (ix2 k q)))
      (fun k => V m c main_arg10 (((cfg0.win 2).blk t).view.emb (ix2 k q)))
      (V m c main_arg9 (((cfg0.win 3).blk t).view.emb (ix1 q)))
      (V m c main_arg12 (((cfg0.win 4).blk t).view.emb (ix1 q)))
    = Cert.GateSpec.cell (fun k => V m c main_v0 (ix2 (rowAt t p) k)) (fun k => V m c main_arg7 (ix2 k q))
      (fun k => V m c main_arg10 (ix2 k q)) (V m c main_arg9 (ix1 q)) (V m c main_arg12 (ix1 q))
  simp only [h0, h1, h2, h3, h4]

/-- An index of the output is in point `t`'s block iff each coordinate is in the block's range on its axis. -/
theorem mem_blk (t : Fin cfg0.N) (i : S131072x256.Idx) :
    i ∈ ((cfg0.win 5).blk t).view.set ↔ ∀ a : Fin 2, win0_5.index t a * S4096x256.size a ≤ (i a).val
      ∧ (i a).val < win0_5.index t a * S4096x256.size a + S4096x256.size a := by
  show i ∈ ((View.whole main_v1).slice (win0_5.rect t)).set ↔ _
  rw [View.set_slice_whole, Rect.mem_set_unit]
  exact Iff.rfl

/-- Every index of the output is in some point's block: row `r` in that of point `r / 4096`. -/
theorem covered (i : S131072x256.Idx) :
    ∃ t : Fin cfg0.N, (cfg0.win 5).flush t = true ∧ i ∈ ((cfg0.win 5).blk t).view.set := by
  have hi0 : (i 0).val < 131072 := (i 0).isLt
  have hi1 : (i 1).val < 256 := (i 1).isLt
  have hN : (i 0).val / 4096 < cfg0.N := lt_of_lt_of_eq (by omega : (i 0).val / 4096 < 32) N_0.symm
  obtain ⟨-, -, -, -, -, -, -, -, e50, e51⟩ := idx_facts ⟨(i 0).val / 4096, hN⟩
  refine ⟨⟨(i 0).val / 4096, hN⟩, flush0_5 _, ?_⟩
  rw [mem_blk]
  intro a
  match a with
  | ⟨0, _⟩ =>
    show win0_5.index ⟨(i 0).val / 4096, hN⟩ (0 : Fin 2) * 4096 ≤ (i 0).val
      ∧ (i 0).val < win0_5.index ⟨(i 0).val / 4096, hN⟩ (0 : Fin 2) * 4096 + 4096
    have e : win0_5.index ⟨(i 0).val / 4096, hN⟩ (0 : Fin 2) = (i 0).val / 4096 := e50
    omega
  | ⟨1, _⟩ =>
    show win0_5.index ⟨(i 0).val / 4096, hN⟩ (1 : Fin 2) * 256 ≤ (i 1).val
      ∧ (i 1).val < win0_5.index ⟨(i 0).val / 4096, hN⟩ (1 : Fin 2) * 256 + 256
    omega

/-- THE OUTPUT ARRAY after the region is `whole`. -/
theorem final (c : Dev nD) : (dats m 0 c).arrAt 5 cfg0.N = whole m c :=
  (dats m 0 c).arrAt_eq_of_cover 5 (whole m c) (fun t _ => flushed_eq m c t) covered

end Cert.KernelIdeal.Blocks

end
-- ==== Proof.Flatten.lean ====
/-
  Flattening the three leading axes commutes with the computation.

  A reshape keeps each element at its row-major position. Position `(a, b, c, k)` of a 64 × 64 × 32 × n array is
  row-major position `((a·64 + b)·32 + c)·n + k`, which in the 131072 × n array is row `(a·64 + b)·32 + c`, column
  `k`. So flattening the input, computing every cell row by row, and unflattening the result gives, at `(a, b, c, q)`,
  the cell of the input's row at `(a, b, c)` and column `q`: `flat` between the two reshapes is `grid`.
-/
import proofs.«162145_j48730698940887_1_alg».proof.Proof.GateSpec
import Idealize.ShloMosaic.Lib.Pipeline.Value

noncomputable section

namespace Cert.GateSpec

open Idealize.ShloMosaic Idealize.ShloMosaic.ValueIdx

/-- The row of the flattened array that position `(a, b, c)` becomes. -/
def rowOf (a b : Fin 64) (c : Fin 32) : Fin 131072 :=
  ⟨(a.val * 64 + b.val) * 32 + c.val, by have := a.isLt; have := b.isLt; have := c.isLt; omega⟩

/-- The flattened input at row `rowOf a b c`, column `k`, is the input at `(a, b, c, k)`. -/
theorem flatten_at (X : (⟨4, ![64, 64, 32, 128]⟩ : Shape).Idx → EReal)
    (h : (⟨4, ![64, 64, 32, 128]⟩ : Shape).ShapeCasts ⟨2, ![131072, 128]⟩) (a b : Fin 64) (c : Fin 32) (k : Fin 128) :
    shapeCast ⟨2, ![131072, 128]⟩ X h (ix2 (rowOf a b c) k) = X (ix4 a b c k) := by
  refine shapeCast_apply X h _ (ix4 a b c k) ?_
  rw [Shape.rowMajor_val_four, Shape.rowMajor_val_two]
  rfl

/-- An array over the flattened rows, unflattened, at `(a, b, c, q)` is the array at row `rowOf a b c`, column `q`. -/
theorem unflatten_at (Y : (⟨2, ![131072, 256]⟩ : Shape).Idx → EReal)
    (h : (⟨2, ![131072, 256]⟩ : Shape).ShapeCasts ⟨4, ![64, 64, 32, 256]⟩) (a b : Fin 64) (c : Fin 32) (q : Fin 256) :
    shapeCast ⟨4, ![64, 64, 32, 256]⟩ Y h (ix4 a b c q) = Y (ix2 (rowOf a b c) q) := by
  refine shapeCast_apply Y h _ (ix2 (rowOf a b c) q) ?_
  rw [Shape.rowMajor_val_four, Shape.rowMajor_val_two]
  rfl

/-- Flatten, compute row by row, unflatten: the result over the input as given. -/
theorem unflatten_flat_flatten (X : (⟨4, ![64, 64, 32, 128]⟩ : Shape).Idx → EReal)
    (Wo Wc : (⟨2, ![128, 256]⟩ : Shape).Idx → EReal) (bo bc : (⟨1, ![256]⟩ : Shape).Idx → EReal)
    (h1 : (⟨4, ![64, 64, 32, 128]⟩ : Shape).ShapeCasts ⟨2, ![131072, 128]⟩)
    (h2 : (⟨2, ![131072, 256]⟩ : Shape).ShapeCasts ⟨4, ![64, 64, 32, 256]⟩) :
    shapeCast ⟨4, ![64, 64, 32, 256]⟩ (flat (shapeCast ⟨2, ![131072, 128]⟩ X h1) Wo Wc bo bc) h2 = grid X Wo Wc bo bc := by
  funext i
  obtain ⟨a, b, c, q, rfl⟩ : ∃ (a b : Fin 64) (c : Fin 32) (q : Fin 256), i = ix4 a b c q :=
    ⟨i 0, i 1, i 2, i 3, eq_ix4 i⟩
  rw [unflatten_at, flat_at, grid_at]
  simp only [flatten_at]

end Cert.GateSpec

end
-- ==== Proof.KernelRun.lean ====
/-
  The kernel's whole program computes `grid`.

  Around its one region the program has two reshapes. Before it, the input is flattened: the region finds, as its
  first array, the input with its three leading axes merged into 131072 rows. The weights and biases it finds as
  launched. After it, the 131072 × 256 array the region leaves is unflattened to 64 × 64 × 32 × 256, and that is the
  program's result. The region leaves `flat` of what it found, so the result is `flat` between a flatten and an
  unflatten, which is `grid` of the arguments.
-/
import proofs.«162145_j48730698940887_1_alg».proof.Proof.Gen.KernelIdeal.Frame
import proofs.«162145_j48730698940887_1_alg».proof.Proof.Blocks
import proofs.«162145_j48730698940887_1_alg».proof.Proof.Flatten
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The region's first array is the input, flattened. -/
theorem entry_v0 (c : Dev nD) :
    (V m c main_v0 : S131072x128.Idx → EReal)
      = shapeCast S131072x128 (m ((c : Thread nD τ).loc main_arg0)) shapeCasts_S64x64x32x128_S131072x128 := by
  show StableHlo.after hostOps0 (fun b => m (c, b)) (Proc.devRef .tc main_v0) = _
  after_results
  rfl

/-- The program's result is the region's output array, unflattened. -/
theorem tail_v2 (c : Dev nD) :
    (Pipeline.afterTail₀ cfgs (dats m) 0 (V0 m) [hostOps1] c main_v2 : S64x64x32x256.Idx → EReal)
      = shapeCast S64x64x32x256 ((dats m 0 c).arrAt 5 cfg0.N) shapeCasts_S131072x256_S64x64x32x256 := by
  unfold Pipeline.afterTail₀
  show StableHlo.after hostOps1 _ (Proc.devRef .tc main_v2) = _
  after_results
  rw [Pipeline.withArrays_arr spec0 launch0.win.arr_inj c _ _ 5]
  rfl

/-- So the result is `grid` of the arguments as launched. -/
theorem result (c : Dev nD) :
    Pipeline.afterTail₀ cfgs (dats m) 0 (V0 m) [hostOps1] c main_v2
      = Cert.GateSpec.grid (m ((c : Thread nD τ).loc main_arg0)) (m ((c : Thread nD τ).loc main_arg7))
          (m ((c : Thread nD τ).loc main_arg10)) (m ((c : Thread nD τ).loc main_arg9)) (m ((c : Thread nD τ).loc main_arg12)) := by
  refine (tail_v2 m c).trans ?_
  rw [Cert.KernelIdeal.Blocks.final]
  unfold Cert.KernelIdeal.Blocks.whole
  rw [entry_v0, V_main_arg7, V_main_arg10, V_main_arg9, V_main_arg12]
  exact Cert.GateSpec.unflatten_flat_flatten _ _ _ _ _ _ _

/-- Every weakly fair execution of the program terminates with its result at `grid` of the arguments and the arguments
    unchanged. -/
theorem run : θ_run defs (onTc (τ := τ) (main (F := Ideal))) ⟨m, fun _ => 0, ρ⟩ (fun r => ∀ c : Dev nD,
      r.2.mem ((c.tc : Thread nD τ).loc main_v2)
        = Cert.GateSpec.grid (m ((c.tc : Thread nD τ).loc main_arg0)) (m ((c.tc : Thread nD τ).loc main_arg7))
            (m ((c.tc : Thread nD τ).loc main_arg10)) (m ((c.tc : Thread nD τ).loc main_arg9)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v2 (Pipeline.mem_restRefs_of main_v2 (by decide) (by decide))).trans (result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 1).trans (((dats m 0 c).arrAt_in 1 rfl _).trans ((A_eq m c 1).trans (V_main_arg7 m c))),
      (((h c).2 main_arg8 (Pipeline.mem_restRefs_of main_arg8 (by decide) (by decide))).trans (W_main_arg8 m (dats m) c)),
      ((h c).1 3).trans (((dats m 0 c).arrAt_in 3 rfl _).trans ((A_eq m c 3).trans (V_main_arg9 m c))),
      ((h c).1 2).trans (((dats m 0 c).arrAt_in 2 rfl _).trans ((A_eq m c 2).trans (V_main_arg10 m c))),
      (((h c).2 main_arg11 (Pipeline.mem_restRefs_of main_arg11 (by decide) (by decide))).trans (W_main_arg11 m (dats m) c)),
      ((h c).1 4).trans (((dats m 0 c).arrAt_in 4 rfl _).trans ((A_eq m c 4).trans (V_main_arg12 m c)))⟩) (run_main m ρ)

end Cert.KernelIdeal.Whole

end
-- ==== Proof.lean ====
/-
  Both programs compute, for every position `(a, b, c)` of a 64 × 64 × 32 grid and every one of 256 output columns `q`,

      σ(Σₖ x(a,b,c,k) · wo(k,q) + bo(q)) · tanh(σ(Σₖ x(a,b,c,k) · wc(k,q) + bc(q))),        σ z = 1 / (1 + e^(−z)),

  the sums over the 128 input features. The kernel flattens the grid to 131072 rows, computes 4096 rows per grid point
  with two matrix products accumulated into zero, a bias row repeated down the block, the logistic function and the
  hyperbolic tangent, and unflattens the result. The reference contracts the four-axis input with each weight matrix
  directly, broadcasts each bias along the leading axes, and spells the logistic function as the quotient
  1 / (1 + e^(−z)). On the extended reals these are one function: a change of float format is the identity, a product
  accumulated into zero and a contraction are the same finite sum, the quotient is the logistic function's definition,
  and a reshape keeps every element at its row-major position. No step needs an operand to be finite, so the
  precondition is never opened.

  GateSpec states the function (`cell`, `flat` over the flattened rows, `grid` over the grid); Flatten shows
  flatten, `flat`, unflatten is `grid`; ReferenceIsGrid reads the reference's result as `grid`; Payload reads what the
  kernel body stores as a cell; Blocks assembles the 32 blocks into `flat`; KernelRun adds the two reshapes.
-/
import proofs.«162145_j48730698940887_1_alg».proof.Defs
import proofs.«162145_j48730698940887_1_alg».proof.Proof.Gen.Kernel
import proofs.«162145_j48730698940887_1_alg».proof.Proof.Gen.Kernel.Skeleton
import proofs.«162145_j48730698940887_1_alg».proof.Proof.Gen.Kernel.Launch
import proofs.«162145_j48730698940887_1_alg».proof.Proof.Gen.Kernel.Points
import proofs.«162145_j48730698940887_1_alg».proof.Proof.Gen.Kernel.Frame
import proofs.«162145_j48730698940887_1_alg».proof.Proof.Gen.KernelIdeal
import proofs.«162145_j48730698940887_1_alg».proof.Proof.Gen.KernelIdeal.Skeleton
import proofs.«162145_j48730698940887_1_alg».proof.Proof.Gen.KernelIdeal.Launch
import proofs.«162145_j48730698940887_1_alg».proof.Proof.Gen.KernelIdeal.Points
import proofs.«162145_j48730698940887_1_alg».proof.Proof.Gen.KernelIdeal.Frame
import proofs.«162145_j48730698940887_1_alg».proof.Proof.Gen.ReferenceIdeal
import proofs.«162145_j48730698940887_1_alg».proof.Proof.Gen.Pre_finite_inputs
import proofs.«162145_j48730698940887_1_alg».proof.Proof.Gen.ReferenceIdeal.Run
import proofs.«162145_j48730698940887_1_alg».proof.Proof.Gen.ReferenceIdeal.Read
import proofs.«162145_j48730698940887_1_alg».proof.Proof.ReferenceIsGrid
import proofs.«162145_j48730698940887_1_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the arguments both programs end with `grid` of the five arguments they read: the
    kernel by its run, the reference by its run read operation by operation. -/
theorem algebraic : Cert.algebraic_KernelIdeal_ReferenceIdeal := by
  intro m ρ m' ρ' _ hagree
  refine ⟨fun c => Cert.GateSpec.grid
      (m ((c.tc : Thread Cert.KernelIdeal.nD Cert.KernelIdeal.τ).loc Cert.KernelIdeal.main_arg0))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg12)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, -, -, -, -, -, -, h7, -, h9, h10, -, h12⟩ := hagree c
  rw [Cert.ReferenceIdeal.Read.val_main_v21_eq, Cert.ReferenceIdeal.IsGrid.result_eq, h0, h7, h9, h10, h12]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
